-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x1600000 : Shape := ⟨2, ![2, 1600000]⟩
abbrev S100000 : Shape := ⟨1, ![100000]⟩
abbrev S15x128 : Shape := ⟨2, ![15, 128]⟩
abbrev S128 : Shape := ⟨1, ![128]⟩
abbrev S128x128 : Shape := ⟨2, ![128, 128]⟩
abbrev S128x11 : Shape := ⟨2, ![128, 11]⟩
abbrev S11 : Shape := ⟨1, ![11]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S15x128 : S_.BroadcastsInDim S15x128 (![] : Fin 0 → Fin S15x128.rank)
  reducesTo_S15x128_S_d0_1 : S15x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x11 : S_.BroadcastsInDim S128x11 (![] : Fin 0 → Fin S128x11.rank)
  reducesTo_S128x11_S_d0_1 : S128x11.ReducesTo [0, 1] S_
  bcast_S_S11 : S_.BroadcastsInDim S11 (![] : Fin 0 → Fin S11.rank)
  reducesTo_S11_S_d0 : S11.ReducesTo [0] S_

variable [Facts]

def fn_part1 {F : FTy → Type} [FloatOps F] (main_arg6 : FVec F S128 .f32) (main_arg7 : FVec F S128x11 .f32) (main_arg8 : FVec F S11 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x11 .f32 := Host.absf main_arg7
  let main_cst_8 : FVec F S_ .f32 := constant S_ .f32 0x7F800000#32
  let main_v25 : FVec F S128x11 .f32 := broadcastInDim S128x11 ![] bcast_S_S128x11 main_cst_8
  let main_v26 : IVec S128x11 1 := cmpf .olt main_v24 main_v25
  let main_c_9 : IVec S_ 1 := constantI S_ 1 1#1
  let main_v27 : IVec S_ 1 := (fun x v => Host.reduce IntOp.andi x v reducesTo_S128x11_S_d0_1 h_S_) main_v26 main_c_9
  let main_v28 : IVec S_ 1 := andi main_v23 main_v27
  let main_v29 : FVec F S11 .f32 := Host.absf main_arg8
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  main_v33

def fn {F : FTy → Type} [FloatOps F] (main_arg0 : FVec F S100000x15 .f32) (main_arg1 : IVec S2x1600000 32) (main_arg2 : IVec S100000 32) (main_arg3 : FVec F S15x128 .f32) (main_arg4 : FVec F S128 .f32) (main_arg5 : FVec F S128x128 .f32) (main_arg6 : FVec F S128 .f32) (main_arg7 : FVec F S128x11 .f32) (main_arg8 : FVec F S11 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S15x128 .f32 := Host.absf main_arg3
  let main_cst_0 : FVec F S_ .f32 := constant S_ .f32 0x7F800000#32
  let main_v5 : FVec F S15x128 .f32 := broadcastInDim S15x128 ![] bcast_S_S15x128 main_cst_0
  let main_v6 : IVec S15x128 1 := cmpf .olt main_v4 main_v5
  let main_c_1 : IVec S_ 1 := constantI S_ 1 1#1
  let main_v7 : IVec S_ 1 := (fun x v => Host.reduce IntOp.andi x v reducesTo_S15x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x15 : Shape := ⟨2, ![100000, 15]⟩
abbrev S2x1600000 : Shape := ⟨2, ![2, 1600000]⟩
abbrev S100000 : Shape := ⟨1, ![100000]⟩
abbrev S15x128 : Shape := ⟨2, ![15, 128]⟩
abbrev S128 : Shape := ⟨1, ![128]⟩
abbrev S128x128 : Shape := ⟨2, ![128, 128]⟩
abbrev S128x11 : Shape := ⟨2, ![128, 11]⟩
abbrev S11 : Shape := ⟨1, ![11]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x15 : Shape := ⟨2, ![10000, 15]⟩
abbrev S10000x128 : Shape := ⟨2, ![10000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x11 : Shape := ⟨2, ![1, 11]⟩
abbrev S64x11 : Shape := ⟨2, ![64, 11]⟩

abbrev nBuf : Space → Nat
  | .hbm => 99
  | .vmem => 24
  | .smem => 0
  | _ => 0

abbrev bufTy : (tb : Table) → Fin (tcTables nBuf tb) → BufTy
  | .hbm, ⟨0, _⟩ => ⟨S100000x15, .f32⟩
  | .hbm, ⟨1, _⟩ => ⟨S2x1600000, .i32⟩
  | .hbm, ⟨2, _⟩ => ⟨S100000, .i32⟩
  | .hbm, ⟨3, _⟩ => ⟨S15x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x11, .f32⟩
  | .hbm, ⟨8, _⟩ => ⟨S11, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S_, .f32⟩
  | .hbm, ⟨82, _⟩ => ⟨S64x128, .f32⟩
  | .hbm, ⟨83, _⟩ => ⟨S100000x1, .i32⟩
  | .hbm, ⟨84, _⟩ => ⟨S64x128, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x128, .f32⟩
  | .hbm, ⟨96, _⟩ => ⟨S64x128, .f32⟩
  | .hbm, ⟨97, _⟩ => ⟨S1x11, .f32⟩
  | .hbm, ⟨98, _⟩ => ⟨S64x11, .f32⟩
  | .local _ .vmem, ⟨0, _⟩ => ⟨S10000x15, .f32⟩
  | .local _ .vmem, ⟨1, _⟩ => ⟨S10000x15, .f32⟩
  | .local _ .vmem, ⟨2, _⟩ => ⟨S15x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S64x128, .f32⟩
  | .local _ .vmem, ⟨21, _⟩ => ⟨S128x11, .f32⟩
  | .local _ .vmem, ⟨22, _⟩ => ⟨S1x11, .f32⟩
  | .local _ .vmem, ⟨23, _⟩ => ⟨S64x11, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x11 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x11 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x11 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x15_S10000x15_0_0 : ∀ a, (![0, 0] : Fin 2 → Nat) a + S10000x15.size a ≤ S10000x15.size a
  h_S10000x15 : 0 < S10000x15.numel
  bitsLt_bf16_f32 : FTy.bits .bf16 < FTy.bits .f32
  inb_S15x128_S15x128_0_0 : ∀ a, (![0, 0] : Fin 2 → Nat) a + S15x128.size a ≤ S15x128.size a
  h_S15x128 : 0 < S15x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S11_S1x11 : S11.ShapeCasts S1x11
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x11_S128x11_0_0 : ∀ a, (![0, 0] : Fin 2 → Nat) a + S128x11.size a ≤ S128x11.size a
  h_S128x11 : 0 < S128x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S64x11 : S1x11.Broadcasts S64x11
  inb_S64x11_S64x11_0_0 : ∀ a, (![0, 0] : Fin 2 → Nat) a + S64x11.size a ≤ S64x11.size a
  h_S64x11 : 0 < S64x11.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x15_S15x128_S10000x128_1_0_0_1_n_n_wf : DotDims.WF S10000x15 S15x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x11_S64x11_1_0_0_1_n_n_wf : DotDims.WF S64x128 S128x11 S64x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x15.size a ≤ S100000x15.size a
  hwx0_0 : ∀ i : grid0.Coords, EltTy.bits .f32 = 32 ∨ (Rect.block (s := S100000x15) S10000x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x128.size a ≤ S15x128.size a
  hwx0_1 : ∀ i : grid0.Coords, EltTy.bits .f32 = 32 ∨ (Rect.block (s := S15x128) S15x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x11.size a ≤ S128x11.size a
  hwx4_1 : ∀ i : grid4.Coords, EltTy.bits .f32 = 32 ∨ (Rect.block (s := S128x11) S128x11.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x11.size a ≤ S1x11.size a
  hwx4_2 : ∀ i : grid4.Coords, EltTy.bits .f32 = 32 ∨ (Rect.block (s := S1x11) S1x11.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x11.size a ≤ S64x11.size a
  hwx4_3 : ∀ i : grid4.Coords, EltTy.bits .f32 = 32 ∨ (Rect.block (s := S64x11) S64x11.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x15_S15x128_S10000x128_1_0_0_1_n_n : DotDims S10000x15 S15x128 S10000x128 where
  lhsContracting := [1]
  rhsContracting := [0]
  lhsNonContracting := [0]
  rhsNonContracting := [1]
  lhsBatch := []
  rhsBatch := []
  wf := dot_S10000x15_S15x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x11_S64x11_1_0_0_1_n_n : DotDims S64x128 S128x11 S64x11 where
  lhsContracting := [1]
  rhsContracting := [0]
  lhsNonContracting := [0]
  rhsNonContracting := [1]
  lhsBatch := []
  rhsBatch := []
  wf := dot_S64x128_S128x11_S64x11_1_0_0_1_n_n_wf

abbrev win0_0 : Pipeline.Window sig grid0 :=
  Pipeline.Window.ofSpec (Memref.whole main_arg0) S10000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S15x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x11.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x11.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x11.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x15 : Shape := ⟨2, ![100000, 15]⟩
abbrev S2x1600000 : Shape := ⟨2, ![2, 1600000]⟩
abbrev S100000 : Shape := ⟨1, ![100000]⟩
abbrev S15x128 : Shape := ⟨2, ![15, 128]⟩
abbrev S128 : Shape := ⟨1, ![128]⟩
abbrev S128x128 : Shape := ⟨2, ![128, 128]⟩
abbrev S128x11 : Shape := ⟨2, ![128, 11]⟩
abbrev S11 : Shape := ⟨1, ![11]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x11 : Shape := ⟨2, ![64, 11]⟩
abbrev S1x11 : Shape := ⟨2, ![1, 11]⟩

abbrev nBuf : Space → Nat
  | .hbm => 109
  | .vmem => 0
  | .smem => 0
  | _ => 0

abbrev bufTy : (tb : Table) → Fin (tcTables nBuf tb) → BufTy
  | .hbm, ⟨0, _⟩ => ⟨S100000x15, .f32⟩
  | .hbm, ⟨1, _⟩ => ⟨S2x1600000, .i32⟩
  | .hbm, ⟨2, _⟩ => ⟨S100000, .i32⟩
  | .hbm, ⟨3, _⟩ => ⟨S15x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x11, .f32⟩
  | .hbm, ⟨8, _⟩ => ⟨S11, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S64x128, .f32⟩
  | .hbm, ⟨91, _⟩ => ⟨S100000x1, .i32⟩
  | .hbm, ⟨92, _⟩ => ⟨S64x128, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S64, .f32⟩
  | .hbm, ⟨97, _⟩ => ⟨S100000x1, .i32⟩
  | .hbm, ⟨98, _⟩ => ⟨S64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64x1, .f32⟩
  | .hbm, ⟨103, _⟩ => ⟨S64x128, .f32⟩
  | .hbm, ⟨104, _⟩ => ⟨S64x128, .f32⟩
  | .hbm, ⟨105, _⟩ => ⟨S64x11, .f32⟩
  | .hbm, ⟨106, _⟩ => ⟨S1x11, .f32⟩
  | .hbm, ⟨107, _⟩ => ⟨S64x11, .f32⟩
  | .hbm, ⟨108, _⟩ => ⟨S64x11, .f32⟩
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S11_S1x11_1 : S11.BroadcastsInDim S1x11 (![1] : Fin 1 → Fin S1x11.rank)
  bcast_S1x11_S64x11_0_1 : S1x11.BroadcastsInDim S64x11 (![0, 1] : Fin 2 → Fin S64x11.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x15_S15x128_S100000x128_1_0_0_1_n_n_wf : DotDims.WF S100000x15 S15x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x11_S64x11_1_0_0_1_n_n_wf : DotDims.WF S64x128 S128x11 S64x11 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x15_S15x128_S100000x128_1_0_0_1_n_n : DotDims S100000x15 S15x128 S100000x128 where
  lhsContracting := [1]
  rhsContracting := [0]
  lhsNonContracting := [0]
  rhsNonContracting := [1]
  lhsBatch := []
  rhsBatch := []
  wf := dot_S100000x15_S15x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x11_S64x11_1_0_0_1_n_n : DotDims S64x128 S128x11 S64x11 where
  lhsContracting := [1]
  rhsContracting := [0]
  lhsNonContracting := [0]
  rhsNonContracting := [1]
  lhsBatch := []
  rhsBatch := []
  wf := dot_S64x128_S128x11_S64x11_1_0_0_1_n_n_wf

class Facts : Prop extends Facts₀ where

variable [Facts]
-- ==== Proof.KernelRun.lean ====
/-
  The idealized kernel's program, run from any memory: every weakly fair execution ends, nothing faulting, with EVERY
  buffer that outlives the call — the result among them — holding the contents the last segment boundary names. Those
  contents are a fold through the program: a stretch of host operations applies them in order, a kernel region leaves
  its arrays at what its write-backs wrote and every other buffer alone. The frame claim keeps of this only the argument
  arrays; the value claim needs the result array, so the run is stated here with the whole final valuation.
-/
import proofs.«108844_j3770981286014_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped to a kernel ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result array ends at the last boundary's contents, the argument arrays as launched. -/
theorem run_result : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)
    (run_all m ρ)

end Cert.KernelIdeal.Whole

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«108844_j3770981286014_1_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.Layer1Product.lean ====
/-
  REGION 0, the first layer's dense transform: the input features `x` (100000 rows of 15) times the weights `W1` (15 × 128).
  The grid has ten points; point `t` holds rows `10000·t … 10000·t + 9999` of the left operand and the whole right
  operand, and writes back the same rows of the output. What a point writes back is the body's product of its block of rows,
  which is those rows of the whole product `Σ_k X(r,k)·W(k,j)`; the ten blocks tile the output array, so after the region the
  array holds the whole product of the two arrays as the region found them.
-/
import proofs.«108844_j3770981286014_1_alg».proof.Proof.Gen.KernelIdeal.Frame
import proofs.«108844_j3770981286014_1_alg».proof.Proof.LibRowProduct
import Idealize.ShloMosaic.Lib.Pipeline.Value

set_option maxRecDepth 16384

noncomputable section

namespace Cert.KernelIdeal.Layer1Product

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the left operand's block moves down the rows with the output's, the
    right operand's block stays, and no block leaves the first column of blocks. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- The body's stored value at `(p, j)` of its block: the sum over the contracted coordinate. -/
theorem payload_apply (x0 : Vec Ideal S10000x15 .f32) (x1 : Vec Ideal S15x128 .f32) (p : Fin 10000) (j : Fin 128) :
    k0_pay1 x0 x1 (ix2 p j) = ∑ k : Fin 15, x0 (ix2 p k) * x1 (ix2 k j) := by
  unfold k0_pay1
  exact RowProduct.body_apply (B := 10000) (K := 15) (M := 128) none x0 x1 _ _ p j

/-- What point `t` writes back is block `t` of the whole product of the arrays the region finds. -/
theorem flushed_eq (c : Dev nD) (t : Fin cfg0.N) :
    (dat0 V c).flushed 2 t = ((cfg0.win 2).blk t).view.read (Elt Ideal)
      (RowProduct.prod (A := 100000) (K := 15) (M := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x15) zero_offsets, View.ld_unit_zero (S := S15x128) zero_offsets]
  obtain ⟨e0, e1, e2, e3, e4, e5⟩ := index_facts t
  funext y
  obtain ⟨p, j, rfl⟩ : ∃ (p : Fin 10000) (j : Fin 128), y = ix2 p j := ⟨y 0, y 1, eq_ix2 y⟩
  have hp := p.isLt
  have hj := j.isLt
  have hr : win0_2.index t (0 : Fin 2) * 10000 + p.val < 100000 := by omega
  show k0_pay1 (iblk0 V c 0 t) (iblk0 V c 1 t) (ix2 p j)
    = RowProduct.prod (A := 100000) (K := 15) (M := 128) (V c main_arg0) (V c main_arg3) (((cfg0.win 2).blk t).view.emb (ix2 p j))
  have hemb : ((cfg0.win 2).blk t).view.emb (ix2 p j) = ix2 ⟨win0_2.index t (0 : Fin 2) * 10000 + p.val, hr⟩ j := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * j.val = j.val; omega
  rw [hemb]
  refine (payload_apply (iblk0 V c 0 t) (iblk0 V c 1 t) p j).trans ?_
  refine RowProduct.block_rows (A := 100000) (B := 10000) (K := 15) (M := 128) (V c main_arg0) (V c main_arg3) (iblk0 V c 0 t) (iblk0 V c 1 t)
    (win0_2.index t (0 : Fin 2) * 10000) p j hr (fun k => ?_) (fun k => ?_)
  · have hk := k.isLt
    show V c main_arg0 (((cfg0.win 0).blk t).view.emb (ix2 p k)) = V c main_arg0 (ix2 ⟨win0_2.index t (0 : Fin 2) * 10000 + p.val, hr⟩ k)
    refine congrArg (V c main_arg0) ?_
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 15 + 1 * k.val = k.val; omega
  · have hk := k.isLt
    show V c main_arg3 (((cfg0.win 1).blk t).view.emb (ix2 k j)) = V c main_arg3 (ix2 k j)
    refine congrArg (V c main_arg3) ?_
    funext a; apply Fin.ext
    match a with
    | ⟨0, _⟩ => show win0_1.index t (0 : Fin 2) * 15 + 1 * k.val = k.val; omega
    | ⟨1, _⟩ => show win0_1.index t (1 : Fin 2) * 128 + 1 * j.val = j.val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The ten blocks of rows cover the output array: row `r` is in the block of point `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array holds the whole product of the two arrays the region found. -/
theorem final (c : Dev nD) : (dat0 V c).arrAt 2 cfg0.N
    = RowProduct.prod (A := 100000) (K := 15) (M := 128) (V c main_arg0) (V c main_arg3) :=
  (dat0 V c).arrAt_eq_of_cover 2 _ (fun t _ => flushed_eq V c t) cover

end Cert.KernelIdeal.Layer1Product

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«108844_j3770981286014_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«108844_j3770981286014_1_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.Layer1Rectify.lean ====
/-
  REGION 1, the first layer's epilogue: the bias row `b1` added to every row of the aggregated features and the sum rectified.
  The grid has ten points; point `t` holds rows `10000·t … 10000·t + 9999` of the aggregated features and the whole one-row
  bias, and writes back the same rows of the output. What a point writes back is `max (z + b) 0` on its block of rows, which is
  those rows of the whole array `max (Z(r,j) + b(0,j)) 0`; the ten blocks tile the output array, so after the region the array
  holds that function of the two arrays as the region found them.
-/
import proofs.«108844_j3770981286014_1_alg».proof.Proof.Gen.KernelIdeal.Frame
import proofs.«108844_j3770981286014_1_alg».proof.Proof.LibBiasRelu
import Idealize.ShloMosaic.Lib.Pipeline.Value

set_option maxRecDepth 16384

noncomputable section

namespace Cert.KernelIdeal.Layer1Rectify

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the features' block moves down the rows with the output's, the bias
    row stays, and no block leaves the first column of blocks. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- The body's stored value at `(p, j)` of its block. -/
theorem payload_apply (x0 : Vec Ideal S10000x128 .f32) (x1 : Vec Ideal S1x128 .f32) (p : Fin 10000) (j : Fin 128) :
    k1_pay1 x0 x1 (ix2 p j) = max (x0 (ix2 p j) + x1 (ix2 (0 : Fin 1) j)) (Ideal.ofBits .f32 0x00000000#32) := by
  unfold k1_pay1
  exact BiasRelu.body_apply (B := 10000) (M := 128) x0 x1 _ _ _ p j

/-- What point `t` writes back is block `t` of the whole rectified sum of the arrays the region finds. -/
theorem flushed_eq (c : Dev nD) (t : Fin cfg1.N) :
    (dat1 V c).flushed 2 t = ((cfg1.win 2).blk t).view.read (Elt Ideal)
      (BiasRelu.biasRelu (A := 100000) (M := 128) (V c main_v41) (V c main_v42)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := index_facts t
  funext y
  obtain ⟨p, j, rfl⟩ : ∃ (p : Fin 10000) (j : Fin 128), y = ix2 p j := ⟨y 0, y 1, eq_ix2 y⟩
  have hp := p.isLt
  have hj := j.isLt
  have hr : win1_2.index t (0 : Fin 2) * 10000 + p.val < 100000 := by omega
  show k1_pay1 (iblk1 V c 0 t) (iblk1 V c 1 t) (ix2 p j)
    = BiasRelu.biasRelu (A := 100000) (M := 128) (V c main_v41) (V c main_v42) (((cfg1.win 2).blk t).view.emb (ix2 p j))
  have hemb : ((cfg1.win 2).blk t).view.emb (ix2 p j) = ix2 ⟨win1_2.index t (0 : Fin 2) * 10000 + p.val, hr⟩ j := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 128 + 1 * j.val = j.val; omega
  rw [hemb]
  refine (payload_apply (iblk1 V c 0 t) (iblk1 V c 1 t) p j).trans ?_
  refine BiasRelu.block_rows (A := 100000) (B := 10000) (M := 128) (V c main_v41) (V c main_v42) (iblk1 V c 0 t) (iblk1 V c 1 t)
    (win1_2.index t (0 : Fin 2) * 10000) p j hr ?_ ?_
  · show V c main_v41 (((cfg1.win 0).blk t).view.emb (ix2 p j)) = V c main_v41 (ix2 ⟨win1_2.index t (0 : Fin 2) * 10000 + p.val, hr⟩ j)
    refine congrArg (V c main_v41) ?_
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 128 + 1 * j.val = j.val; omega
  · show V c main_v42 (((cfg1.win 1).blk t).view.emb (ix2 (0 : Fin 1) j)) = V c main_v42 (ix2 (0 : Fin 1) j)
    refine congrArg (V c main_v42) ?_
    funext a; apply Fin.ext
    match a with
    | ⟨0, _⟩ => show win1_1.index t (0 : Fin 2) * 1 + 1 * 0 = 0; omega
    | ⟨1, _⟩ => show win1_1.index t (1 : Fin 2) * 128 + 1 * j.val = j.val; omega

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v43).slice (win1_2.rect t)).set ↔ _
  rw [View.set_slice_whole, Rect.mem_set_unit]
  exact Iff.rfl

/-- The ten blocks of rows cover the output array: row `r` is in the block of point `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array holds the rectified sum of the two arrays the region found. -/
theorem final (c : Dev nD) : (dat1 V c).arrAt 2 cfg1.N
    = BiasRelu.biasRelu (A := 100000) (M := 128) (V c main_v41) (V c main_v42) :=
  (dat1 V c).arrAt_eq_of_cover 2 _ (fun t _ => flushed_eq V c t) cover

end Cert.KernelIdeal.Layer1Rectify

end
-- ==== Proof.Layer2Product.lean ====
/-
  REGION 2, the second layer's dense transform: the first layer's output `h` (100000 rows of 128) times the weights `W2` (128 × 128).
  The grid has ten points; point `t` holds rows `10000·t … 10000·t + 9999` of the left operand and the whole right
  operand, and writes back the same rows of the output. What a point writes back is the body's product of its block of rows,
  which is those rows of the whole product `Σ_k X(r,k)·W(k,j)`; the ten blocks tile the output array, so after the region the
  array holds the whole product of the two arrays as the region found them.
-/
import proofs.«108844_j3770981286014_1_alg».proof.Proof.Gen.KernelIdeal.Frame
import proofs.«108844_j3770981286014_1_alg».proof.Proof.LibRowProduct
import Idealize.ShloMosaic.Lib.Pipeline.Value

set_option maxRecDepth 16384

noncomputable section

namespace Cert.KernelIdeal.Layer2Product

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the left operand's block moves down the rows with the output's, the
    right operand's block stays, and no block leaves the first column of blocks. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- The body's stored value at `(p, j)` of its block: the sum over the contracted coordinate. -/
theorem payload_apply (x0 : Vec Ideal S10000x128 .f32) (x1 : Vec Ideal S128x128 .f32) (p : Fin 10000) (j : Fin 128) :
    k2_pay1 x0 x1 (ix2 p j) = ∑ k : Fin 128, x0 (ix2 p k) * x1 (ix2 k j) := by
  unfold k2_pay1
  rw [shapeCast_self]
  exact RowProduct.body_apply (B := 10000) (K := 128) (M := 128) none x0 x1 _ _ p j

/-- What point `t` writes back is block `t` of the whole product of the arrays the region finds. -/
theorem flushed_eq (c : Dev nD) (t : Fin cfg2.N) :
    (dat2 V c).flushed 2 t = ((cfg2.win 2).blk t).view.read (Elt Ideal)
      (RowProduct.prod (A := 100000) (K := 128) (M := 128) (V c main_v43) (V c main_arg5)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := index_facts t
  funext y
  obtain ⟨p, j, rfl⟩ : ∃ (p : Fin 10000) (j : Fin 128), y = ix2 p j := ⟨y 0, y 1, eq_ix2 y⟩
  have hp := p.isLt
  have hj := j.isLt
  have hr : win2_2.index t (0 : Fin 2) * 10000 + p.val < 100000 := by omega
  show k2_pay1 (iblk2 V c 0 t) (iblk2 V c 1 t) (ix2 p j)
    = RowProduct.prod (A := 100000) (K := 128) (M := 128) (V c main_v43) (V c main_arg5) (((cfg2.win 2).blk t).view.emb (ix2 p j))
  have hemb : ((cfg2.win 2).blk t).view.emb (ix2 p j) = ix2 ⟨win2_2.index t (0 : Fin 2) * 10000 + p.val, hr⟩ j := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 128 + 1 * j.val = j.val; omega
  rw [hemb]
  refine (payload_apply (iblk2 V c 0 t) (iblk2 V c 1 t) p j).trans ?_
  refine RowProduct.block_rows (A := 100000) (B := 10000) (K := 128) (M := 128) (V c main_v43) (V c main_arg5) (iblk2 V c 0 t) (iblk2 V c 1 t)
    (win2_2.index t (0 : Fin 2) * 10000) p j hr (fun k => ?_) (fun k => ?_)
  · have hk := k.isLt
    show V c main_v43 (((cfg2.win 0).blk t).view.emb (ix2 p k)) = V c main_v43 (ix2 ⟨win2_2.index t (0 : Fin 2) * 10000 + p.val, hr⟩ k)
    refine congrArg (V c main_v43) ?_
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · have hk := k.isLt
    show V c main_arg5 (((cfg2.win 1).blk t).view.emb (ix2 k j)) = V c main_arg5 (ix2 k j)
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * j.val = j.val; omega

/-- An index of the output array is in point `t`'s block iff each coordinate is in the block's range on its axis. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v44).slice (win2_2.rect t)).set ↔ _
  rw [View.set_slice_whole, Rect.mem_set_unit]
  exact Iff.rfl

/-- The ten blocks of rows cover the output array: row `r` is in the block of point `r / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the output array holds the whole product of the two arrays the region found. -/
theorem final (c : Dev nD) : (dat2 V c).arrAt 2 cfg2.N
    = RowProduct.prod (A := 100000) (K := 128) (M := 128) (V c main_v43) (V c main_arg5) :=
  (dat2 V c).arrAt_eq_of_cover 2 _ (fun t _ => flushed_eq V c t) cover

end Cert.KernelIdeal.Layer2Product

end
-- ==== Proof.Layer2Rectify.lean ====
/-
  REGION 3, the second layer's epilogue: the bias row `b2` added to every row of the aggregated features and the sum rectified.
  The grid has ten points; point `t` holds rows `10000·t … 10000·t + 9999` of the aggregated features and the whole one-row
  bias, and writes back the same rows of the output. What a point writes back is `max (z + b) 0` on its block of rows, which is
  those rows of the whole array `max (Z(r,j) + b(0,j)) 0`; the ten blocks tile the output array, so after the region the array
  holds that function of the two arrays as the region found them.
-/
import proofs.«108844_j3770981286014_1_alg».proof.Proof.Gen.KernelIdeal.Frame
import proofs.«108844_j3770981286014_1_alg».proof.Proof.LibBiasRelu
import Idealize.ShloMosaic.Lib.Pipeline.Value

set_option maxRecDepth 16384

noncomputable section

namespace Cert.KernelIdeal.Layer2Rectify

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the features' block moves down the rows with the output's, the bias
    row stays, and no block leaves the first column of blocks. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- The body's stored value at `(p, j)` of its block. -/
theorem payload_apply (x0 : Vec Ideal S10000x128 .f32) (x1 : Vec Ideal S1x128 .f32) (p : Fin 10000) (j : Fin 128) :
    k3_pay1 x0 x1 (ix2 p j) = max (x0 (ix2 p j) + x1 (ix2 (0 : Fin 1) j)) (Ideal.ofBits .f32 0x00000000#32) := by
  unfold k3_pay1
  exact BiasRelu.body_apply (B := 10000) (M := 128) x0 x1 _ _ _ p j

/-- What point `t` writes back is block `t` of the whole rectified sum of the arrays the region finds. -/
theorem flushed_eq (c : Dev nD) (t : Fin cfg3.N) :
    (dat3 V c).flushed 2 t = ((cfg3.win 2).blk t).view.read (Elt Ideal)
      (BiasRelu.biasRelu (A := 100000) (M := 128) (V c main_v56) (V c main_v57)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := index_facts t
  funext y
  obtain ⟨p, j, rfl⟩ : ∃ (p : Fin 10000) (j : Fin 128), y = ix2 p j := ⟨y 0, y 1, eq_ix2 y⟩
  have hp := p.isLt
  have hj := j.isLt
  have hr : win3_2.index t (0 : Fin 2) * 10000 + p.val < 100000 := by omega
  show k3_pay1 (iblk3 V c 0 t) (iblk3 V c 1 t) (ix2 p j)
    = BiasRelu.biasRelu (A := 100000) (M := 128) (V c main_v56) (V c main_v57) (((cfg3.win 2).blk t).view.emb (ix2 p j))
  have hemb : ((cfg3.win 2).blk t).view.emb (ix2 p j) = ix2 ⟨win3_2.index t (0 : Fin 2) * 10000 + p.val, hr⟩ j := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 128 + 1 * j.val = j.val; omega
  rw [hemb]
  refine (payload_apply (iblk3 V c 0 t) (iblk3 V c 1 t) p j).trans ?_
  refine BiasRelu.block_rows (A := 100000) (B := 10000) (M := 128) (V c main_v56) (V c main_v57) (iblk3 V c 0 t) (iblk3 V c 1 t)
    (win3_2.index t (0 : Fin 2) * 10000) p j hr ?_ ?_
  · show V c main_v56 (((cfg3.win 0).blk t).view.emb (ix2 p j)) = V c main_v56 (ix2 ⟨win3_2.index t (0 : Fin 2) * 10000 + p.val, hr⟩ j)
    refine congrArg (V c main_v56) ?_
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 128 + 1 * j.val = j.val; omega
  · show V c main_v57 (((cfg3.win 1).blk t).view.emb (ix2 (0 : Fin 1) j)) = V c main_v57 (ix2 (0 : Fin 1) j)
    refine congrArg (V c main_v57) ?_
    funext a; apply Fin.ext
    match a with
    | ⟨0, _⟩ => show win3_1.index t (0 : Fin 2) * 1 + 1 * 0 = 0; omega
    | ⟨1, _⟩ => show win3_1.index t (1 : Fin 2) * 128 + 1 * j.val = j.val; omega

/-- An index of the output array is in point `t`'s block iff each coordinate is in the block's range on its axis. -/
theorem mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v58).slice (win3_2.rect t)).set ↔ _
  rw [View.set_slice_whole, Rect.mem_set_unit]
  exact Iff.rfl

/-- The ten blocks of rows cover the output array: row `r` is in the block of point `r / 10000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the output array holds the rectified sum of the two arrays the region found. -/
theorem final (c : Dev nD) : (dat3 V c).arrAt 2 cfg3.N
    = BiasRelu.biasRelu (A := 100000) (M := 128) (V c main_v56) (V c main_v57) :=
  (dat3 V c).arrAt_eq_of_cover 2 _ (fun t _ => flushed_eq V c t) cover

end Cert.KernelIdeal.Layer2Rectify

end
-- ==== Proof.Head.lean ====
/-
  REGION 4, the linear head: the pooled features (64 rows of 128) times the weights `Wf` (128 × 11) plus the one-row bias.
  The grid has one point; every window's block is its whole array, and the body stores `Σ_k P(r,k)·Wf(k,j) + bf(0,j)`
  (both factors first rounded to bf16, the identity on the extended reals) through the whole output block. So after the
  region the output array holds that function of the three arrays as the region found them.
-/
import proofs.«108844_j3770981286014_1_alg».proof.Proof.Gen.KernelIdeal.Frame
import proofs.«108844_j3770981286014_1_alg».proof.Proof.LibAffine
import Idealize.ShloMosaic.Lib.Pipeline.Value

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A bf16 word is narrower than an f32 word. -/
theorem bf16_lt_f32 : FTy.bf16.bits < FTy.f32.bits := by decide

theorem zero_offsets : (![0, 0] : Fin 2 → Nat) = fun _ => 0 := funext fun a => by fin_cases a <;> rfl

/-- The printed index maps at the one grid point: every window's block is the first (and only) one on both axes. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The body's stored value at `(p, j)`: the sum over the contracted coordinate plus the bias row's entry. -/
theorem payload_apply (x0 : Vec Ideal S64x128 .f32) (x1 : Vec Ideal S128x11 .f32) (x2 : Vec Ideal S1x11 .f32) (p : Fin 64) (j : Fin 11) :
    k4_pay1 x0 x1 x2 (ix2 p j) = (∑ k : Fin 128, x0 (ix2 p k) * x1 (ix2 k j)) + x2 (ix2 (0 : Fin 1) j) := by
  unfold k4_pay1
  rw [shapeCast_self, shapeCast_self]
  exact Affine.body_apply (A := 64) (K := 128) (M := 11) none x0 (truncf .bf16 x1 bf16_lt_f32) x2 _ _ p j

/-- What the one point writes back is the whole function of the arrays the region finds. -/
theorem flushed_eq (c : Dev nD) (t : Fin cfg4.N) :
    (dat4 V c).flushed 3 t = ((cfg4.win 3).blk t).view.read (Elt Ideal)
      (Affine.affine (A := 64) (K := 128) (M := 11) (V c main_v70) (truncf .bf16 (V c main_arg7) bf16_lt_f32) (V c main_v71)) := by
  show (cfg4.win 3).cut (grid4.coords t) ((dat4 V c).after 3 t) = _
  rw [after4_3]
  unfold out4_3
  rw [View.canon_unit_zero zero_offsets]
  simp only [View.ld_unit_zero (S := S64x128) zero_offsets, View.ld_unit_zero (S := S128x11) zero_offsets, View.ld_unit_zero (S := S1x11) zero_offsets]
  obtain ⟨e0, e1, e2, e3, e4, e5, e6, e7⟩ := index_facts t
  funext y
  obtain ⟨p, j, rfl⟩ : ∃ (p : Fin 64) (j : Fin 11), y = ix2 p j := ⟨y 0, y 1, eq_ix2 y⟩
  have hp := p.isLt
  have hj := j.isLt
  show k4_pay1 (iblk4 V c 0 t) (iblk4 V c 1 t) (iblk4 V c 2 t) (ix2 p j)
    = Affine.affine (A := 64) (K := 128) (M := 11) (V c main_v70) (truncf .bf16 (V c main_arg7) bf16_lt_f32) (V c main_v71)
        (((cfg4.win 3).blk t).view.emb (ix2 p j))
  have hemb : ((cfg4.win 3).blk t).view.emb (ix2 p j) = ix2 p j := by
    funext a; apply Fin.ext
    match a with
    | ⟨0, _⟩ => show win4_3.index t (0 : Fin 2) * 64 + 1 * p.val = p.val; omega
    | ⟨1, _⟩ => show win4_3.index t (1 : Fin 2) * 11 + 1 * j.val = j.val; omega
  rw [hemb, Affine.affine_ix2]
  refine (payload_apply (iblk4 V c 0 t) (iblk4 V c 1 t) (iblk4 V c 2 t) p j).trans ?_
  refine congrArg₂ (· + ·) (Finset.sum_congr rfl fun k _ => congrArg₂ (· * ·) ?_ ?_) ?_
  · have hk := k.isLt
    show V c main_v70 (((cfg4.win 0).blk t).view.emb (ix2 p k)) = V c main_v70 (ix2 p k)
    refine congrArg (V c main_v70) ?_
    funext a; apply Fin.ext
    match a with
    | ⟨0, _⟩ => show win4_0.index t (0 : Fin 2) * 64 + 1 * p.val = p.val; omega
    | ⟨1, _⟩ => show win4_0.index t (1 : Fin 2) * 128 + 1 * k.val = k.val; omega
  · have hk := k.isLt
    show V c main_arg7 (((cfg4.win 1).blk t).view.emb (ix2 k j)) = V c main_arg7 (ix2 k j)
    refine congrArg (V c main_arg7) ?_
    funext a; apply Fin.ext
    match a with
    | ⟨0, _⟩ => show win4_1.index t (0 : Fin 2) * 128 + 1 * k.val = k.val; omega
    | ⟨1, _⟩ => show win4_1.index t (1 : Fin 2) * 11 + 1 * j.val = j.val; omega
  · show V c main_v71 (((cfg4.win 2).blk t).view.emb (ix2 (0 : Fin 1) j)) = V c main_v71 (ix2 (0 : Fin 1) j)
    refine congrArg (V c main_v71) ?_
    funext a; apply Fin.ext
    match a with
    | ⟨0, _⟩ => show win4_2.index t (0 : Fin 2) * 1 + 1 * 0 = 0; omega
    | ⟨1, _⟩ => show win4_2.index t (1 : Fin 2) * 11 + 1 * j.val = j.val; omega

/-- An index of the output array is in the point's block iff each coordinate is in the block's range on its axis. -/
theorem mem_block (t : Fin cfg4.N) (i : S64x11.Idx) :
    i ∈ ((cfg4.win 3).blk t).view.set ↔ ∀ a : Fin 2, win4_3.index t a * S64x11.size a ≤ (i a).val ∧ (i a).val < win4_3.index t a * S64x11.size a + S64x11.size a := by
  show i ∈ ((View.whole main_v72).slice (win4_3.rect t)).set ↔ _
  rw [View.set_slice_whole, Rect.mem_set_unit]
  exact Iff.rfl

/-- The one block is the whole output array. -/
theorem cover (i : S64x11.Idx) :
    ∃ t : Fin cfg4.N, (cfg4.win 3).flush t = true ∧ i ∈ ((cfg4.win 3).blk t).view.set := by
  have hi0 : (i 0).val < 64 := (i 0).isLt
  have hi1 : (i 1).val < 11 := (i 1).isLt
  obtain ⟨e0, e1, e2, e3, e4, e5, e6, e7⟩ := index_facts t4_0
  refine ⟨t4_0, flush4_3 t4_0, ?_⟩
  rw [mem_block]
  intro a
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 11 ≤ (i 1).val ∧ (i 1).val < win4_3.index t4_0 (1 : Fin 2) * 11 + 11; omega

/-- After the region the output array holds rows·weights + bias of the three arrays the region found. -/
theorem final (c : Dev nD) : (dat4 V c).arrAt 3 cfg4.N
    = Affine.affine (A := 64) (K := 128) (M := 11) (V c main_v70) (truncf .bf16 (V c main_arg7) bf16_lt_f32) (V c main_v71) :=
  (dat4 V c).arrAt_eq_of_cover 3 _ (fun t _ => flushed_eq V c t) cover

end Cert.KernelIdeal.Head

end
-- ==== Proof.Stretch0.lean ====
/-
  The host operations before the first kernel region, read from any contents `W` of the buffers: the self-loops appended to
  the edge list (sources `main_v3`, targets `main_v6`), the degree of every node by a scatter-add of ones, its power −1/2,
  and the per-edge normalisation `dinv[src]·dinv[dst]` as a column (`main_v28`). The reference program performs the same
  operations in the same order, so each of these buffers holds the reference's stage of the edge list the stretch read.
  The float arguments and the graph labels are not written.
-/
import proofs.«108844_j3770981286014_1_alg».proof.Proof.Gen.KernelIdeal.Launch
import proofs.«108844_j3770981286014_1_alg».proof.Proof.Gen.ReferenceIdeal.Read
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable (W : Valuation τ sig (Elt Ideal))

/-- The edge sources with the self-loops appended. -/
theorem sources : StableHlo.after (hostOps0 (F := Ideal)) W (Proc.devRef .tc main_v3)
    = Cert.ReferenceIdeal.Read.val_main_v3 (F := Ideal) (W (Proc.devRef .tc main_arg1)) := by
  after_results_simp
  rfl

/-- The edge targets with the self-loops appended. -/
theorem targets : StableHlo.after (hostOps0 (F := Ideal)) W (Proc.devRef .tc main_v6)
    = Cert.ReferenceIdeal.Read.val_main_v6 (F := Ideal) (W (Proc.devRef .tc main_arg1)) := by
  after_results_simp
  rfl

/-- The per-edge normalisation column. -/
theorem norm : StableHlo.after (hostOps0 (F := Ideal)) W (Proc.devRef .tc main_v28)
    = Cert.ReferenceIdeal.Read.val_main_v28 (F := Ideal) (W (Proc.devRef .tc main_arg1)) := by
  after_results_simp
  rfl

/-- The stretch writes nothing to `main_arg0`. -/
theorem keep_arg0 : StableHlo.after (hostOps0 (F := Ideal)) W (Proc.devRef .tc main_arg0) = W (Proc.devRef .tc main_arg0) := by
  after_results_simp

/-- The stretch writes nothing to `main_arg2`. -/
theorem keep_arg2 : StableHlo.after (hostOps0 (F := Ideal)) W (Proc.devRef .tc main_arg2) = W (Proc.devRef .tc main_arg2) := by
  after_results_simp

/-- The stretch writes nothing to `main_arg3`. -/
theorem keep_arg3 : StableHlo.after (hostOps0 (F := Ideal)) W (Proc.devRef .tc main_arg3) = W (Proc.devRef .tc main_arg3) := by
  after_results_simp

/-- The stretch writes nothing to `main_arg4`. -/
theorem keep_arg4 : StableHlo.after (hostOps0 (F := Ideal)) W (Proc.devRef .tc main_arg4) = W (Proc.devRef .tc main_arg4) := by
  after_results_simp

/-- The stretch writes nothing to `main_arg5`. -/
theorem keep_arg5 : StableHlo.after (hostOps0 (F := Ideal)) W (Proc.devRef .tc main_arg5) = W (Proc.devRef .tc main_arg5) := by
  after_results_simp

/-- The stretch writes nothing to `main_arg6`. -/
theorem keep_arg6 : StableHlo.after (hostOps0 (F := Ideal)) W (Proc.devRef .tc main_arg6) = W (Proc.devRef .tc main_arg6) := by
  after_results_simp

/-- The stretch writes nothing to `main_arg7`. -/
theorem keep_arg7 : StableHlo.after (hostOps0 (F := Ideal)) W (Proc.devRef .tc main_arg7) = W (Proc.devRef .tc main_arg7) := by
  after_results_simp

/-- The stretch writes nothing to `main_arg8`. -/
theorem keep_arg8 : StableHlo.after (hostOps0 (F := Ideal)) W (Proc.devRef .tc main_arg8) = W (Proc.devRef .tc main_arg8) := by
  after_results_simp

end Cert.KernelIdeal.Stretch0

end
-- ==== Proof.Stretch1.lean ====
/-
  The host operations between the first layer's dense transform and its epilogue, read from any contents `W` of the
  buffers: message passing (gather the transformed rows at the edge sources, scale each by its edge's normalisation, add
  them up at the edge targets) and the bias recast to a row. The reference performs the same operations on its own dense
  transform, so when the buffers read hold the reference's stages, so does the aggregate.
-/
import proofs.«108844_j3770981286014_1_alg».proof.Proof.Gen.KernelIdeal.Launch
import proofs.«108844_j3770981286014_1_alg».proof.Proof.Gen.ReferenceIdeal.Read
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

variable (W : Valuation τ sig (Elt Ideal))

/-- The aggregated features: the rows of the dense transform gathered at the edge sources, scaled by the edges' normalisation
    and added into the rows of a zero array at the edge targets. -/
theorem aggregate (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal))
    (hh : W (Proc.devRef .tc main_v29) = Cert.ReferenceIdeal.Read.val_main_v29 (F := Ideal) x0 x3)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h28 : W (Proc.devRef .tc main_v28) = Cert.ReferenceIdeal.Read.val_main_v28 (F := Ideal) x1) :
    StableHlo.after (hostOps1 (F := Ideal)) W (Proc.devRef .tc main_v41)
      = Cert.ReferenceIdeal.Read.val_main_v41 (F := Ideal) x0 x1 x3 := by
  after_results_simp
  rw [hh, h3, h6, h28]
  rfl

/-- The layer's bias recast from a vector to a one-row matrix. -/
theorem bias_row : StableHlo.after (hostOps1 (F := Ideal)) W (Proc.devRef .tc main_v42)
    = shapeCast S1x128 (W (Proc.devRef .tc main_arg4)) shapeCasts_S128_S1x128 := by
  after_results_simp
  rfl

/-- The stretch writes nothing to `main_v3`. -/
theorem keep_v3 : StableHlo.after (hostOps1 (F := Ideal)) W (Proc.devRef .tc main_v3) = W (Proc.devRef .tc main_v3) := by
  after_results_simp

/-- The stretch writes nothing to `main_v6`. -/
theorem keep_v6 : StableHlo.after (hostOps1 (F := Ideal)) W (Proc.devRef .tc main_v6) = W (Proc.devRef .tc main_v6) := by
  after_results_simp

/-- The stretch writes nothing to `main_v28`. -/
theorem keep_v28 : StableHlo.after (hostOps1 (F := Ideal)) W (Proc.devRef .tc main_v28) = W (Proc.devRef .tc main_v28) := by
  after_results_simp

/-- The stretch writes nothing to `main_arg2`. -/
theorem keep_arg2 : StableHlo.after (hostOps1 (F := Ideal)) W (Proc.devRef .tc main_arg2) = W (Proc.devRef .tc main_arg2) := by
  after_results_simp

/-- The stretch writes nothing to `main_arg5`. -/
theorem keep_arg5 : StableHlo.after (hostOps1 (F := Ideal)) W (Proc.devRef .tc main_arg5) = W (Proc.devRef .tc main_arg5) := by
  after_results_simp

/-- The stretch writes nothing to `main_arg6`. -/
theorem keep_arg6 : StableHlo.after (hostOps1 (F := Ideal)) W (Proc.devRef .tc main_arg6) = W (Proc.devRef .tc main_arg6) := by
  after_results_simp

/-- The stretch writes nothing to `main_arg7`. -/
theorem keep_arg7 : StableHlo.after (hostOps1 (F := Ideal)) W (Proc.devRef .tc main_arg7) = W (Proc.devRef .tc main_arg7) := by
  after_results_simp

/-- The stretch writes nothing to `main_arg8`. -/
theorem keep_arg8 : StableHlo.after (hostOps1 (F := Ideal)) W (Proc.devRef .tc main_arg8) = W (Proc.devRef .tc main_arg8) := by
  after_results_simp

end Cert.KernelIdeal.Stretch1

end
-- ==== Proof.Stretch3.lean ====
/-
  The host operations between the second layer's dense transform and its epilogue, read from any contents `W` of the
  buffers: the same message passing as in the first layer, over the same edges and normalisation, and the second bias
  recast to a row. When the buffers read hold the reference's stages, so does the aggregate.
-/
import proofs.«108844_j3770981286014_1_alg».proof.Proof.Gen.KernelIdeal.Launch
import proofs.«108844_j3770981286014_1_alg».proof.Proof.Gen.ReferenceIdeal.Read
import Idealize.ShloMosaic.Lib.StableHlo.Run

set_option maxRecDepth 16384

noncomputable section

namespace Cert.KernelIdeal.Stretch3

open Cert.KernelIdeal Cert.KernelIdeal.Gen
open Idealize.ShloMosaic Idealize.ShloMosaic.TcCoe Idealize.SL.Sem Idealize.ShloMosaic.StableHlo

variable (W : Valuation τ sig (Elt Ideal))

/-- The aggregated features: the rows of the dense transform gathered at the edge sources, scaled by the edges' normalisation
    and added into the rows of a zero array at the edge targets. -/
theorem aggregate (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal))
    (hh : W (Proc.devRef .tc main_v44) = Cert.ReferenceIdeal.Read.val_main_v46 (F := Ideal) x0 x1 x3 x4 x5)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h28 : W (Proc.devRef .tc main_v28) = Cert.ReferenceIdeal.Read.val_main_v28 (F := Ideal) x1) :
    StableHlo.after (hostOps3 (F := Ideal)) W (Proc.devRef .tc main_v56)
      = Cert.ReferenceIdeal.Read.val_main_v58 (F := Ideal) x0 x1 x3 x4 x5 := by
  after_results_simp
  rw [hh, h3, h6, h28]
  rfl

/-- The layer's bias recast from a vector to a one-row matrix. -/
theorem bias_row : StableHlo.after (hostOps3 (F := Ideal)) W (Proc.devRef .tc main_v57)
    = shapeCast S1x128 (W (Proc.devRef .tc main_arg6)) shapeCasts_S128_S1x128 := by
  after_results_simp
  rfl

/-- The stretch writes nothing to `main_arg2`. -/
theorem keep_arg2 : StableHlo.after (hostOps3 (F := Ideal)) W (Proc.devRef .tc main_arg2) = W (Proc.devRef .tc main_arg2) := by
  after_results_simp

/-- The stretch writes nothing to `main_arg7`. -/
theorem keep_arg7 : StableHlo.after (hostOps3 (F := Ideal)) W (Proc.devRef .tc main_arg7) = W (Proc.devRef .tc main_arg7) := by
  after_results_simp

/-- The stretch writes nothing to `main_arg8`. -/
theorem keep_arg8 : StableHlo.after (hostOps3 (F := Ideal)) W (Proc.devRef .tc main_arg8) = W (Proc.devRef .tc main_arg8) := by
  after_results_simp

end Cert.KernelIdeal.Stretch3

end
-- ==== Proof.Stretch4.lean ====
/-
  The host operations between the second layer's epilogue and the head, read from any contents `W` of the buffers: the
  mean of the node features over each graph (the features added up per graph label, the nodes counted per label, the sums
  divided by the counts, a count below one replaced by one) and the head's bias recast to a row. The reference performs
  the same operations on its own second-layer output.
-/
import proofs.«108844_j3770981286014_1_alg».proof.Proof.Gen.KernelIdeal.Launch
import proofs.«108844_j3770981286014_1_alg».proof.Proof.Gen.ReferenceIdeal.Read
import Idealize.ShloMosaic.Lib.StableHlo.Run

set_option maxRecDepth 16384

noncomputable section

namespace Cert.KernelIdeal.Stretch4

open Cert.KernelIdeal Cert.KernelIdeal.Gen
open Idealize.ShloMosaic Idealize.ShloMosaic.TcCoe Idealize.SL.Sem Idealize.ShloMosaic.StableHlo

variable (W : Valuation τ sig (Elt Ideal))

/-- The pooled features: per-graph sums divided by the per-graph counts (at least one). -/
theorem pooled (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (hh : W (Proc.devRef .tc main_v58) = Cert.ReferenceIdeal.Read.val_main_v62 (F := Ideal) x0 x1 x3 x4 x5 x6) :
    StableHlo.after (hostOps4 (F := Ideal)) W (Proc.devRef .tc main_v70)
      = Cert.ReferenceIdeal.Read.val_main_v74 (F := Ideal) x0 x1 (W (Proc.devRef .tc main_arg2)) x3 x4 x5 x6 := by
  after_results_simp
  rw [hh]
  rfl

/-- The head's bias recast from a vector to a one-row matrix. -/
theorem bias_row : StableHlo.after (hostOps4 (F := Ideal)) W (Proc.devRef .tc main_v71)
    = shapeCast S1x11 (W (Proc.devRef .tc main_arg8)) shapeCasts_S11_S1x11 := by
  after_results_simp
  rfl

/-- The stretch writes nothing to `main_arg7`. -/
theorem keep_arg7 : StableHlo.after (hostOps4 (F := Ideal)) W (Proc.devRef .tc main_arg7) = W (Proc.devRef .tc main_arg7) := by
  after_results_simp

end Cert.KernelIdeal.Stretch4

end
-- ==== Proof.RefStages.lean ====
/-
  The reference's five dense stages, each as the ONE function the kernel's region leaves, of the stage before:
  its two `dot_general`s are the whole products `Σ_k X(r,k)·W(k,j)`; its two `relu(agg + b)` are `max (Z(r,j) + b(j)) 0` with
  the bias vector recast to a row; its head `pooled·Wf + bf` is rows times weights plus the bias row, the weights rounded to
  bf16 (the identity on the extended reals). Everything between these stages — the message passing and the pooling — is
  carried by name and never opened.
-/
import proofs.«108844_j3770981286014_1_alg».proof.Proof.Gen.ReferenceIdeal.Read
import proofs.«108844_j3770981286014_1_alg».proof.Proof.LibRowProduct
import proofs.«108844_j3770981286014_1_alg».proof.Proof.LibBiasRelu
import proofs.«108844_j3770981286014_1_alg».proof.Proof.LibAffine

set_option maxRecDepth 16384

noncomputable section

namespace Cert.ReferenceIdeal.Stages

open Cert.ReferenceIdeal Cert.ReferenceIdeal.Read
open Idealize.ShloMosaic Idealize.ShloMosaic.TcCoe Idealize.ShloMosaic.ValueIdx

/-- The first layer's dense transform is the whole product of the features with the first weights. -/
theorem product1 (x0 : (⟨Cert.ReferenceIdeal.S100000x15, .f32⟩ : BufTy).Contents (Elt Ideal)) (x3 : (⟨Cert.ReferenceIdeal.S15x128, .f32⟩ : BufTy).Contents (Elt Ideal)) :
    val_main_v29 (F := Ideal) x0 x3 = RowProduct.prod (A := 100000) (K := 15) (M := 128) x0 x3 := by
  unfold val_main_v29
  exact RowProduct.host_eq (A := 100000) (K := 15) (M := 128) none .single x0 x3

/-- The first layer's output is the rectified sum of its aggregate and its bias, the bias recast to a row. -/
theorem rectify1 (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (hc : (⟨1, ![128]⟩ : Shape).ShapeCasts ⟨2, ![1, 128]⟩) :
    val_main_v45 (F := Ideal) x0 x1 x3 x4
      = BiasRelu.biasRelu (A := 100000) (M := 128) (val_main_v41 (F := Ideal) x0 x1 x3) (shapeCast ⟨2, ![1, 128]⟩ x4 hc) := by
  unfold val_main_v45 val_main_v44 val_main_v43 val_main_v42 val_main_call0_v0 val_main_call0_cst
  exact (BiasRelu.biasRelu_eq_host (A := 100000) (M := 128) (val_main_v41 (F := Ideal) x0 x1 x3) x4 hc _ _ _).symm

/-- The second layer's dense transform is the whole product of the first layer's output with the second weights. -/
theorem product2 (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) :
    val_main_v46 (F := Ideal) x0 x1 x3 x4 x5
      = RowProduct.prod (A := 100000) (K := 128) (M := 128) (val_main_v45 (F := Ideal) x0 x1 x3 x4) x5 := by
  unfold val_main_v46
  exact RowProduct.host_eq (A := 100000) (K := 128) (M := 128) none .single (val_main_v45 (F := Ideal) x0 x1 x3 x4) x5

/-- The second layer's output is the rectified sum of its aggregate and its bias, the bias recast to a row. -/
theorem rectify2 (x0 : (⟨Cert.ReferenceIdeal.S100000x15, .f32⟩ : BufTy).Contents (Elt Ideal)) (x1 : (⟨Cert.ReferenceIdeal.S2x1600000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (hc : (⟨1, ![128]⟩ : Shape).ShapeCasts ⟨2, ![1, 128]⟩) :
    val_main_v62 (F := Ideal) x0 x1 x3 x4 x5 x6
      = BiasRelu.biasRelu (A := 100000) (M := 128) (val_main_v58 (F := Ideal) x0 x1 x3 x4 x5) (shapeCast ⟨2, ![1, 128]⟩ x6 hc) := by
  unfold val_main_v62 val_main_v61 val_main_v60 val_main_v59 val_main_call1_v0 val_main_call1_cst
  exact (BiasRelu.biasRelu_eq_host (A := 100000) (M := 128) (val_main_v58 (F := Ideal) x0 x1 x3 x4 x5) x6 hc _ _ _).symm

/-- The head is the pooled features times the head's weights (rounded to bf16) plus the head's bias recast to a row. -/
theorem head (x0 : (⟨Cert.ReferenceIdeal.S100000x15, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S15x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x11, .f32⟩ : BufTy).Contents (Elt Ideal)) (x8 : (⟨Cert.ReferenceIdeal.S11, .f32⟩ : BufTy).Contents (Elt Ideal)) (ht : FTy.bf16.bits < FTy.f32.bits)
    (hc : (⟨1, ![11]⟩ : Shape).ShapeCasts ⟨2, ![1, 11]⟩) :
    val_main_v78 (F := Ideal) x0 x1 x2 x3 x4 x5 x6 x7 x8
      = Affine.affine (A := 64) (K := 128) (M := 11) (val_main_v74 (F := Ideal) x0 x1 x2 x3 x4 x5 x6) (truncf .bf16 x7 ht)
          (shapeCast ⟨2, ![1, 11]⟩ x8 hc) := by
  unfold val_main_v78 val_main_v77 val_main_v76 val_main_v75
  exact (Affine.affine_eq_host (A := 64) (K := 128) (M := 11) none .single (val_main_v74 (F := Ideal) x0 x1 x2 x3 x4 x5 x6) x7 x8 ht hc _ _).symm

end Cert.ReferenceIdeal.Stages

end
-- ==== Proof.Bridge.lean ====
/-
  The kernel's program and the reference, boundary by boundary. The kernel's program is nine segments: four stretches of
  host operations and five kernel regions. The contents of the buffers at each boundary are a fold from the launch memory;
  here that fold is walked forward once. At every boundary each buffer that is still to be read holds a NAMED value: an
  argument array as launched, or a stage of the reference program of the argument arrays — the edge list with self-loops
  and its normalisation, each layer's dense transform, aggregate and rectified output, the pooled features. A host stretch
  carries the names along because both programs apply the same operations there; a region carries them along because the
  array it leaves is the function of its inputs that the reference's stage is (a whole product; a rectified biased sum; rows
  times weights plus bias). No law of arithmetic beyond reading both spellings at an index is used, so nothing here
  needs the inputs to be finite.
-/
import proofs.«108844_j3770981286014_1_alg».proof.Proof.Gen.KernelIdeal.Frame
import proofs.«108844_j3770981286014_1_alg».proof.Proof.Gen.ReferenceIdeal.Read
import proofs.«108844_j3770981286014_1_alg».proof.Proof.Layer1Product
import proofs.«108844_j3770981286014_1_alg».proof.Proof.Layer1Rectify
import proofs.«108844_j3770981286014_1_alg».proof.Proof.Layer2Product
import proofs.«108844_j3770981286014_1_alg».proof.Proof.Layer2Rectify
import proofs.«108844_j3770981286014_1_alg».proof.Proof.Head
import proofs.«108844_j3770981286014_1_alg».proof.Proof.Stretch0
import proofs.«108844_j3770981286014_1_alg».proof.Proof.Stretch1
import proofs.«108844_j3770981286014_1_alg».proof.Proof.Stretch3
import proofs.«108844_j3770981286014_1_alg».proof.Proof.Stretch4
import proofs.«108844_j3770981286014_1_alg».proof.Proof.RefStages

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Entering the first region: the graph's normalisation is computed, nothing else is touched -/

theorem at1_arg0 : W1 (F := Ideal) m ρ c (Proc.devRef .tc main_arg0) = (m ((c.tc : Thread nD τ).loc main_arg0)) :=
  Stretch0.keep_arg0 (W0 m ρ c)

theorem at1_arg3 : W1 (F := Ideal) m ρ c (Proc.devRef .tc main_arg3) = (m ((c.tc : Thread nD τ).loc main_arg3)) :=
  Stretch0.keep_arg3 (W0 m ρ c)

theorem at1_v3 : W1 (F := Ideal) m ρ c (Proc.devRef .tc main_v3) = Cert.ReferenceIdeal.Read.val_main_v3 (F := Ideal) (m ((c.tc : Thread nD τ).loc main_arg1)) :=
  Stretch0.sources (W0 m ρ c)

theorem at1_v6 : W1 (F := Ideal) m ρ c (Proc.devRef .tc main_v6) = Cert.ReferenceIdeal.Read.val_main_v6 (F := Ideal) (m ((c.tc : Thread nD τ).loc main_arg1)) :=
  Stretch0.targets (W0 m ρ c)

theorem at1_v28 : W1 (F := Ideal) m ρ c (Proc.devRef .tc main_v28) = Cert.ReferenceIdeal.Read.val_main_v28 (F := Ideal) (m ((c.tc : Thread nD τ).loc main_arg1)) :=
  Stretch0.norm (W0 m ρ c)

theorem at1_arg4 : W1 (F := Ideal) m ρ c (Proc.devRef .tc main_arg4) = (m ((c.tc : Thread nD τ).loc main_arg4)) :=
  Stretch0.keep_arg4 (W0 m ρ c)

theorem at1_arg5 : W1 (F := Ideal) m ρ c (Proc.devRef .tc main_arg5) = (m ((c.tc : Thread nD τ).loc main_arg5)) :=
  Stretch0.keep_arg5 (W0 m ρ c)

theorem at1_arg6 : W1 (F := Ideal) m ρ c (Proc.devRef .tc main_arg6) = (m ((c.tc : Thread nD τ).loc main_arg6)) :=
  Stretch0.keep_arg6 (W0 m ρ c)

theorem at1_arg2 : W1 (F := Ideal) m ρ c (Proc.devRef .tc main_arg2) = (m ((c.tc : Thread nD τ).loc main_arg2)) :=
  Stretch0.keep_arg2 (W0 m ρ c)

theorem at1_arg8 : W1 (F := Ideal) m ρ c (Proc.devRef .tc main_arg8) = (m ((c.tc : Thread nD τ).loc main_arg8)) :=
  Stretch0.keep_arg8 (W0 m ρ c)

theorem at1_arg7 : W1 (F := Ideal) m ρ c (Proc.devRef .tc main_arg7) = (m ((c.tc : Thread nD τ).loc main_arg7)) :=
  Stretch0.keep_arg7 (W0 m ρ c)

/-! ## After the first region: the first dense transform -/

theorem at2_v29 : W2 (F := Ideal) m ρ c (Proc.devRef .tc main_v29) = Cert.ReferenceIdeal.Read.val_main_v29 (F := Ideal) (m ((c.tc : Thread nD τ).loc main_arg0)) (m ((c.tc : Thread nD τ).loc main_arg3)) :=
  calc W2 (F := Ideal) m ρ c (Proc.devRef .tc main_v29)
    _ = (dat0 (V1 m ρ) c).arrAt 2 cfg0.N := W2_arr m ρ c 2
    _ = RowProduct.prod (A := 100000) (K := 15) (M := 128) (V1 m ρ c main_arg0) (V1 m ρ c main_arg3) := Layer1Product.final (V1 m ρ) c
    _ = RowProduct.prod (A := 100000) (K := 15) (M := 128) (m ((c.tc : Thread nD τ).loc main_arg0)) (m ((c.tc : Thread nD τ).loc main_arg3)) :=
        congrArg₂ (RowProduct.prod (A := 100000) (K := 15) (M := 128)) (at1_arg0 m ρ c) (at1_arg3 m ρ c)
    _ = Cert.ReferenceIdeal.Read.val_main_v29 (F := Ideal) (m ((c.tc : Thread nD τ).loc main_arg0)) (m ((c.tc : Thread nD τ).loc main_arg3)) := (Cert.ReferenceIdeal.Stages.product1 _ _).symm

theorem at2_v3 : W2 (F := Ideal) m ρ c (Proc.devRef .tc main_v3) = Cert.ReferenceIdeal.Read.val_main_v3 (F := Ideal) (m ((c.tc : Thread nD τ).loc main_arg1)) :=
  (W2_of_ne m ρ c main_v3 (by decide)).trans (at1_v3 m ρ c)

theorem at2_v6 : W2 (F := Ideal) m ρ c (Proc.devRef .tc main_v6) = Cert.ReferenceIdeal.Read.val_main_v6 (F := Ideal) (m ((c.tc : Thread nD τ).loc main_arg1)) :=
  (W2_of_ne m ρ c main_v6 (by decide)).trans (at1_v6 m ρ c)

theorem at2_v28 : W2 (F := Ideal) m ρ c (Proc.devRef .tc main_v28) = Cert.ReferenceIdeal.Read.val_main_v28 (F := Ideal) (m ((c.tc : Thread nD τ).loc main_arg1)) :=
  (W2_of_ne m ρ c main_v28 (by decide)).trans (at1_v28 m ρ c)

theorem at2_arg4 : W2 (F := Ideal) m ρ c (Proc.devRef .tc main_arg4) = (m ((c.tc : Thread nD τ).loc main_arg4)) :=
  (W2_of_ne m ρ c main_arg4 (by decide)).trans (at1_arg4 m ρ c)

theorem at2_arg5 : W2 (F := Ideal) m ρ c (Proc.devRef .tc main_arg5) = (m ((c.tc : Thread nD τ).loc main_arg5)) :=
  (W2_of_ne m ρ c main_arg5 (by decide)).trans (at1_arg5 m ρ c)

theorem at2_arg6 : W2 (F := Ideal) m ρ c (Proc.devRef .tc main_arg6) = (m ((c.tc : Thread nD τ).loc main_arg6)) :=
  (W2_of_ne m ρ c main_arg6 (by decide)).trans (at1_arg6 m ρ c)

theorem at2_arg2 : W2 (F := Ideal) m ρ c (Proc.devRef .tc main_arg2) = (m ((c.tc : Thread nD τ).loc main_arg2)) :=
  (W2_of_ne m ρ c main_arg2 (by decide)).trans (at1_arg2 m ρ c)

theorem at2_arg8 : W2 (F := Ideal) m ρ c (Proc.devRef .tc main_arg8) = (m ((c.tc : Thread nD τ).loc main_arg8)) :=
  (W2_of_ne m ρ c main_arg8 (by decide)).trans (at1_arg8 m ρ c)

theorem at2_arg7 : W2 (F := Ideal) m ρ c (Proc.devRef .tc main_arg7) = (m ((c.tc : Thread nD τ).loc main_arg7)) :=
  (W2_of_ne m ρ c main_arg7 (by decide)).trans (at1_arg7 m ρ c)

/-! ## Entering the second region: the first layer's message passing, and its bias as a row -/

theorem at3_v41 : W3 (F := Ideal) m ρ c (Proc.devRef .tc main_v41) = Cert.ReferenceIdeal.Read.val_main_v41 (F := Ideal) (m ((c.tc : Thread nD τ).loc main_arg0)) (m ((c.tc : Thread nD τ).loc main_arg1)) (m ((c.tc : Thread nD τ).loc main_arg3)) :=
  Stretch1.aggregate (W2 m ρ c) (m ((c.tc : Thread nD τ).loc main_arg0)) (m ((c.tc : Thread nD τ).loc main_arg1)) (m ((c.tc : Thread nD τ).loc main_arg3)) (at2_v29 m ρ c) (at2_v3 m ρ c) (at2_v6 m ρ c) (at2_v28 m ρ c)

theorem at3_v42 : W3 (F := Ideal) m ρ c (Proc.devRef .tc main_v42) = shapeCast S1x128 (m ((c.tc : Thread nD τ).loc main_arg4)) shapeCasts_S128_S1x128 :=
  (Stretch1.bias_row (W2 m ρ c)).trans (congrArg (fun z => shapeCast S1x128 z shapeCasts_S128_S1x128) (at2_arg4 m ρ c))

theorem at3_v3 : W3 (F := Ideal) m ρ c (Proc.devRef .tc main_v3) = Cert.ReferenceIdeal.Read.val_main_v3 (F := Ideal) (m ((c.tc : Thread nD τ).loc main_arg1)) :=
  (Stretch1.keep_v3 (W2 m ρ c)).trans (at2_v3 m ρ c)

theorem at3_v6 : W3 (F := Ideal) m ρ c (Proc.devRef .tc main_v6) = Cert.ReferenceIdeal.Read.val_main_v6 (F := Ideal) (m ((c.tc : Thread nD τ).loc main_arg1)) :=
  (Stretch1.keep_v6 (W2 m ρ c)).trans (at2_v6 m ρ c)

theorem at3_v28 : W3 (F := Ideal) m ρ c (Proc.devRef .tc main_v28) = Cert.ReferenceIdeal.Read.val_main_v28 (F := Ideal) (m ((c.tc : Thread nD τ).loc main_arg1)) :=
  (Stretch1.keep_v28 (W2 m ρ c)).trans (at2_v28 m ρ c)

theorem at3_arg5 : W3 (F := Ideal) m ρ c (Proc.devRef .tc main_arg5) = (m ((c.tc : Thread nD τ).loc main_arg5)) :=
  (Stretch1.keep_arg5 (W2 m ρ c)).trans (at2_arg5 m ρ c)

theorem at3_arg6 : W3 (F := Ideal) m ρ c (Proc.devRef .tc main_arg6) = (m ((c.tc : Thread nD τ).loc main_arg6)) :=
  (Stretch1.keep_arg6 (W2 m ρ c)).trans (at2_arg6 m ρ c)

theorem at3_arg2 : W3 (F := Ideal) m ρ c (Proc.devRef .tc main_arg2) = (m ((c.tc : Thread nD τ).loc main_arg2)) :=
  (Stretch1.keep_arg2 (W2 m ρ c)).trans (at2_arg2 m ρ c)

theorem at3_arg8 : W3 (F := Ideal) m ρ c (Proc.devRef .tc main_arg8) = (m ((c.tc : Thread nD τ).loc main_arg8)) :=
  (Stretch1.keep_arg8 (W2 m ρ c)).trans (at2_arg8 m ρ c)

theorem at3_arg7 : W3 (F := Ideal) m ρ c (Proc.devRef .tc main_arg7) = (m ((c.tc : Thread nD τ).loc main_arg7)) :=
  (Stretch1.keep_arg7 (W2 m ρ c)).trans (at2_arg7 m ρ c)

/-! ## After the second region: the first layer's output -/

theorem at4_v43 : W4 (F := Ideal) m ρ c (Proc.devRef .tc main_v43) = Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4)) :=
  calc W4 (F := Ideal) m ρ c (Proc.devRef .tc main_v43)
    _ = (dat1 (V3 m ρ) c).arrAt 2 cfg1.N := W4_arr m ρ c 2
    _ = BiasRelu.biasRelu (A := 100000) (M := 128) (V3 m ρ c main_v41) (V3 m ρ c main_v42) := Layer1Rectify.final (V3 m ρ) c
    _ = BiasRelu.biasRelu (A := 100000) (M := 128) (Cert.ReferenceIdeal.Read.val_main_v41 (F := Ideal) (m ((c.tc : Thread nD τ).loc main_arg0)) (m ((c.tc : Thread nD τ).loc main_arg1)) (m ((c.tc : Thread nD τ).loc main_arg3))) (shapeCast S1x128 (m ((c.tc : Thread nD τ).loc main_arg4)) shapeCasts_S128_S1x128) :=
        congrArg₂ (BiasRelu.biasRelu (A := 100000) (M := 128)) (at3_v41 m ρ c) (at3_v42 m ρ c)
    _ = Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4)) := (Cert.ReferenceIdeal.Stages.rectify1 _ _ _ _ _).symm

theorem at4_arg5 : W4 (F := Ideal) m ρ c (Proc.devRef .tc main_arg5) = (m ((c.tc : Thread nD τ).loc main_arg5)) :=
  (W4_of_ne m ρ c main_arg5 (by decide)).trans (at3_arg5 m ρ c)

theorem at4_v3 : W4 (F := Ideal) m ρ c (Proc.devRef .tc main_v3) = Cert.ReferenceIdeal.Read.val_main_v3 (F := Ideal) (m ((c.tc : Thread nD τ).loc main_arg1)) :=
  (W4_of_ne m ρ c main_v3 (by decide)).trans (at3_v3 m ρ c)

theorem at4_v6 : W4 (F := Ideal) m ρ c (Proc.devRef .tc main_v6) = Cert.ReferenceIdeal.Read.val_main_v6 (F := Ideal) (m ((c.tc : Thread nD τ).loc main_arg1)) :=
  (W4_of_ne m ρ c main_v6 (by decide)).trans (at3_v6 m ρ c)

theorem at4_v28 : W4 (F := Ideal) m ρ c (Proc.devRef .tc main_v28) = Cert.ReferenceIdeal.Read.val_main_v28 (F := Ideal) (m ((c.tc : Thread nD τ).loc main_arg1)) :=
  (W4_of_ne m ρ c main_v28 (by decide)).trans (at3_v28 m ρ c)

theorem at4_arg6 : W4 (F := Ideal) m ρ c (Proc.devRef .tc main_arg6) = (m ((c.tc : Thread nD τ).loc main_arg6)) :=
  (W4_of_ne m ρ c main_arg6 (by decide)).trans (at3_arg6 m ρ c)

theorem at4_arg2 : W4 (F := Ideal) m ρ c (Proc.devRef .tc main_arg2) = (m ((c.tc : Thread nD τ).loc main_arg2)) :=
  (W4_of_ne m ρ c main_arg2 (by decide)).trans (at3_arg2 m ρ c)

theorem at4_arg8 : W4 (F := Ideal) m ρ c (Proc.devRef .tc main_arg8) = (m ((c.tc : Thread nD τ).loc main_arg8)) :=
  (W4_of_ne m ρ c main_arg8 (by decide)).trans (at3_arg8 m ρ c)

theorem at4_arg7 : W4 (F := Ideal) m ρ c (Proc.devRef .tc main_arg7) = (m ((c.tc : Thread nD τ).loc main_arg7)) :=
  (W4_of_ne m ρ c main_arg7 (by decide)).trans (at3_arg7 m ρ c)

/-! ## After the third region: the second dense transform -/

theorem at5_v44 : W5 (F := Ideal) m ρ c (Proc.devRef .tc main_v44) = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  calc W5 (F := Ideal) m ρ c (Proc.devRef .tc main_v44)
    _ = (dat2 (V4 m ρ) c).arrAt 2 cfg2.N := W5_arr m ρ c 2
    _ = RowProduct.prod (A := 100000) (K := 128) (M := 128) (V4 m ρ c main_v43) (V4 m ρ c main_arg5) := Layer2Product.final (V4 m ρ) c
    _ = RowProduct.prod (A := 100000) (K := 128) (M := 128) (Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)) :=
        congrArg₂ (RowProduct.prod (A := 100000) (K := 128) (M := 128)) (at4_v43 m ρ c) (at4_arg5 m ρ c)
    _ = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := (Cert.ReferenceIdeal.Stages.product2 _ _ _ _ _).symm

theorem at5_v3 : W5 (F := Ideal) m ρ c (Proc.devRef .tc main_v3) = Cert.ReferenceIdeal.Read.val_main_v3 (F := Ideal) (m ((c.tc : Thread nD τ).loc main_arg1)) :=
  (W5_of_ne m ρ c main_v3 (by decide)).trans (at4_v3 m ρ c)

theorem at5_v6 : W5 (F := Ideal) m ρ c (Proc.devRef .tc main_v6) = Cert.ReferenceIdeal.Read.val_main_v6 (F := Ideal) (m ((c.tc : Thread nD τ).loc main_arg1)) :=
  (W5_of_ne m ρ c main_v6 (by decide)).trans (at4_v6 m ρ c)

theorem at5_v28 : W5 (F := Ideal) m ρ c (Proc.devRef .tc main_v28) = Cert.ReferenceIdeal.Read.val_main_v28 (F := Ideal) (m ((c.tc : Thread nD τ).loc main_arg1)) :=
  (W5_of_ne m ρ c main_v28 (by decide)).trans (at4_v28 m ρ c)

theorem at5_arg6 : W5 (F := Ideal) m ρ c (Proc.devRef .tc main_arg6) = (m ((c.tc : Thread nD τ).loc main_arg6)) :=
  (W5_of_ne m ρ c main_arg6 (by decide)).trans (at4_arg6 m ρ c)

theorem at5_arg2 : W5 (F := Ideal) m ρ c (Proc.devRef .tc main_arg2) = (m ((c.tc : Thread nD τ).loc main_arg2)) :=
  (W5_of_ne m ρ c main_arg2 (by decide)).trans (at4_arg2 m ρ c)

theorem at5_arg8 : W5 (F := Ideal) m ρ c (Proc.devRef .tc main_arg8) = (m ((c.tc : Thread nD τ).loc main_arg8)) :=
  (W5_of_ne m ρ c main_arg8 (by decide)).trans (at4_arg8 m ρ c)

theorem at5_arg7 : W5 (F := Ideal) m ρ c (Proc.devRef .tc main_arg7) = (m ((c.tc : Thread nD τ).loc main_arg7)) :=
  (W5_of_ne m ρ c main_arg7 (by decide)).trans (at4_arg7 m ρ c)

/-! ## Entering the fourth region: the second layer's message passing, and its bias as a row -/

theorem at6_v56 : W6 (F := Ideal) m ρ c (Proc.devRef .tc main_v56) = Cert.ReferenceIdeal.Read.val_main_v58 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  Stretch3.aggregate (W5 m ρ c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (at5_v44 m ρ c) (at5_v3 m ρ c) (at5_v6 m ρ c) (at5_v28 m ρ c)

theorem at6_v57 : W6 (F := Ideal) m ρ c (Proc.devRef .tc main_v57) = shapeCast S1x128 (m ((c.tc : Thread nD τ).loc main_arg6)) shapeCasts_S128_S1x128 :=
  (Stretch3.bias_row (W5 m ρ c)).trans (congrArg (fun z => shapeCast S1x128 z shapeCasts_S128_S1x128) (at5_arg6 m ρ c))

theorem at6_arg2 : W6 (F := Ideal) m ρ c (Proc.devRef .tc main_arg2) = (m ((c.tc : Thread nD τ).loc main_arg2)) :=
  (Stretch3.keep_arg2 (W5 m ρ c)).trans (at5_arg2 m ρ c)

theorem at6_arg8 : W6 (F := Ideal) m ρ c (Proc.devRef .tc main_arg8) = (m ((c.tc : Thread nD τ).loc main_arg8)) :=
  (Stretch3.keep_arg8 (W5 m ρ c)).trans (at5_arg8 m ρ c)

theorem at6_arg7 : W6 (F := Ideal) m ρ c (Proc.devRef .tc main_arg7) = (m ((c.tc : Thread nD τ).loc main_arg7)) :=
  (Stretch3.keep_arg7 (W5 m ρ c)).trans (at5_arg7 m ρ c)

/-! ## After the fourth region: the second layer's output -/

theorem at7_v58 : W7 (F := Ideal) m ρ c (Proc.devRef .tc main_v58) = Cert.ReferenceIdeal.Read.val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  calc W7 (F := Ideal) m ρ c (Proc.devRef .tc main_v58)
    _ = (dat3 (V6 m ρ) c).arrAt 2 cfg3.N := W7_arr m ρ c 2
    _ = BiasRelu.biasRelu (A := 100000) (M := 128) (V6 m ρ c main_v56) (V6 m ρ c main_v57) := Layer2Rectify.final (V6 m ρ) c
    _ = BiasRelu.biasRelu (A := 100000) (M := 128) (Cert.ReferenceIdeal.Read.val_main_v58 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (shapeCast S1x128 (m ((c.tc : Thread nD τ).loc main_arg6)) shapeCasts_S128_S1x128) :=
        congrArg₂ (BiasRelu.biasRelu (A := 100000) (M := 128)) (at6_v56 m ρ c) (at6_v57 m ρ c)
    _ = Cert.ReferenceIdeal.Read.val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := (Cert.ReferenceIdeal.Stages.rectify2 _ _ _ _ _ _ _).symm

theorem at7_arg2 : W7 (F := Ideal) m ρ c (Proc.devRef .tc main_arg2) = (m ((c.tc : Thread nD τ).loc main_arg2)) :=
  (W7_of_ne m ρ c main_arg2 (by decide)).trans (at6_arg2 m ρ c)

theorem at7_arg8 : W7 (F := Ideal) m ρ c (Proc.devRef .tc main_arg8) = (m ((c.tc : Thread nD τ).loc main_arg8)) :=
  (W7_of_ne m ρ c main_arg8 (by decide)).trans (at6_arg8 m ρ c)

theorem at7_arg7 : W7 (F := Ideal) m ρ c (Proc.devRef .tc main_arg7) = (m ((c.tc : Thread nD τ).loc main_arg7)) :=
  (W7_of_ne m ρ c main_arg7 (by decide)).trans (at6_arg7 m ρ c)

/-! ## Entering the last region: the mean over each graph, and the head's bias as a row -/

theorem at8_v70 : W8 (F := Ideal) m ρ c (Proc.devRef .tc main_v70) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Stretch4.pooled (W7 m ρ c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (at7_v58 m ρ c)).trans
    (congrArg (fun z => Cert.ReferenceIdeal.Read.val_main_v74 (F := Ideal) (m ((c.tc : Thread nD τ).loc main_arg0)) (m ((c.tc : Thread nD τ).loc main_arg1)) z (m ((c.tc : Thread nD τ).loc main_arg3)) (m ((c.tc : Thread nD τ).loc main_arg4)) (m ((c.tc : Thread nD τ).loc main_arg5)) (m ((c.tc : Thread nD τ).loc main_arg6))) (at7_arg2 m ρ c))

theorem at8_v71 : W8 (F := Ideal) m ρ c (Proc.devRef .tc main_v71) = shapeCast S1x11 (m ((c.tc : Thread nD τ).loc main_arg8)) shapeCasts_S11_S1x11 :=
  (Stretch4.bias_row (W7 m ρ c)).trans (congrArg (fun z => shapeCast S1x11 z shapeCasts_S11_S1x11) (at7_arg8 m ρ c))

theorem at8_arg7 : W8 (F := Ideal) m ρ c (Proc.devRef .tc main_arg7) = (m ((c.tc : Thread nD τ).loc main_arg7)) :=
  (Stretch4.keep_arg7 (W7 m ρ c)).trans (at7_arg7 m ρ c)

/-! ## After the last region: the result -/

/-- THE RESULT ARRAY after the kernel's program is the reference's result, as one function of the nine argument arrays. -/
theorem at9_v72 : W9 (F := Ideal) m ρ c (Proc.devRef .tc main_v72) = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  calc W9 (F := Ideal) m ρ c (Proc.devRef .tc main_v72)
    _ = (dat4 (V8 m ρ) c).arrAt 3 cfg4.N := W9_arr m ρ c 3
    _ = Affine.affine (A := 64) (K := 128) (M := 11) (V8 m ρ c main_v70) (truncf .bf16 (V8 m ρ c main_arg7) Head.bf16_lt_f32) (V8 m ρ c main_v71) := Head.final (V8 m ρ) c
    _ = Affine.affine (A := 64) (K := 128) (M := 11) (Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (truncf .bf16 (m ((c.tc : Thread nD τ).loc main_arg7)) Head.bf16_lt_f32) (shapeCast S1x11 (m ((c.tc : Thread nD τ).loc main_arg8)) shapeCasts_S11_S1x11) := by
        rw [show V8 (F := Ideal) m ρ c main_v70 = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) from at8_v70 m ρ c,
          show V8 (F := Ideal) m ρ c main_arg7 = (m ((c.tc : Thread nD τ).loc main_arg7)) from at8_arg7 m ρ c,
          show V8 (F := Ideal) m ρ c main_v71 = shapeCast S1x11 (m ((c.tc : Thread nD τ).loc main_arg8)) shapeCasts_S11_S1x11 from at8_v71 m ρ c]
    _ = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (Cert.ReferenceIdeal.Stages.head _ _ _ _ _ _ _ _ _ _ _).symm

end Cert.KernelIdeal.Bridge

end
-- ==== Proof.lean ====
/-
  A two-layer graph convolution, mean-pooled per graph and fed to a linear head, in two programs over the extended reals.
  Both programs add self-loops to the edge list, count each node's degree, scale every edge by `deg(src)^(-1/2)·deg(dst)^(-1/2)`,
  and then twice transform the node features by a weight matrix, gather the transformed rows along the edges, scale them,
  add them up at the edges' targets, add a bias and rectify; the node features are then averaged over each graph and
  multiplied by the head's weights, plus its bias. The reference does all of it with host operations. The kernel's program
  does the irregular parts (degree, gather, scatter-add, pooling) with the SAME host operations and hands the five dense
  parts to kernel regions: the two weight products (tiled over ten blocks of 10000 rows, operands rounded to bf16, which
  is the identity on the extended reals, the matrix unit summing into a zero accumulator), the two bias-and-rectify steps
  (same tiling, the bias kept as a one-row matrix), and the head (one block).

  Why the two results are equal, entry by entry: a row block's product is those rows of the whole product, and the ten
  blocks tile the array, so each product region leaves exactly the host's `dot_general` of its inputs; likewise each
  bias-and-rectify region leaves `max (Z(r,j) + b(j)) 0`, which is the host's `maximum (Z + broadcast b) 0`; the head leaves
  `Σ_k P(r,k)·Wf(k,j) + bf(j)`. Between the regions both programs apply the same operations to equal arrays. Only
  reading the two spellings at an index is used — no distributivity, no cancellation — so the precondition (finite inputs)
  is never opened.

  The three frames: the two kernel programs' frames are the generated ones; the reference's is its generated run with the
  result dropped. The idealization rewrote nothing, so `preserves` is trivial.
-/
import proofs.«108844_j3770981286014_1_alg».proof.Defs
import proofs.«108844_j3770981286014_1_alg».proof.Proof.Gen.Kernel
import proofs.«108844_j3770981286014_1_alg».proof.Proof.Gen.Kernel.Frame
import proofs.«108844_j3770981286014_1_alg».proof.Proof.Gen.KernelIdeal
import proofs.«108844_j3770981286014_1_alg».proof.Proof.Gen.KernelIdeal.Frame
import proofs.«108844_j3770981286014_1_alg».proof.Proof.Gen.ReferenceIdeal
import proofs.«108844_j3770981286014_1_alg».proof.Proof.Gen.ReferenceIdeal.Run
import proofs.«108844_j3770981286014_1_alg».proof.Proof.Gen.ReferenceIdeal.Read
import proofs.«108844_j3770981286014_1_alg».proof.Proof.Gen.Pre_finite_inputs
import proofs.«108844_j3770981286014_1_alg».proof.Proof.KernelRun
import proofs.«108844_j3770981286014_1_alg».proof.Proof.Bridge

set_option maxRecDepth 16384

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the same `[64, 11]` array: the reference's last
    stage of the arguments. The kernel's run ends with its result buffer at the last boundary's contents, which the walk
    through the boundaries names; the reference's run ends at its composed term, which is that stage. -/
theorem algebraic : Cert.algebraic_KernelIdeal_ReferenceIdeal := by
  intro m ρ m' ρ' _ hagree
  refine ⟨fun c => Cert.ReferenceIdeal.Read.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.at9_v72 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v78_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
